-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x4096 : Shape := ⟨3, ![8, 64, 4096]⟩
abbrev S64x64 : Shape := ⟨2, ![64, 64]⟩
abbrev S64 : Shape := ⟨1, ![64]⟩
abbrev S1 : Shape := ⟨1, ![1]⟩
abbrev S_ : Shape := ⟨0, ![]⟩

class Facts : Prop where
  bcast_S_S8x64x4096 : S_.BroadcastsInDim S8x64x4096 (![] : Fin 0 → Fin S8x64x4096.rank)
  reducesTo_S8x64x4096_S_d0_1_2 : S8x64x4096.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S64 .f32) (main_arg5 : FVec F S64x64 .f32) (main_arg6 : FVec F S64 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S8x64x4096 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : FVec F S1 .f32) : IVec S_ 1 :=
  let main_v0 : FVec F S8x64x4096 .f32 := Host.absf main_arg0
  let main_cst : FVec F S_ .f32 := constant S_ .f32 0x7F800000#32
  let main_v1 : FVec F S8x64x4096 .f32 := broadcastInDim S8x64x4096 ![] bcast_S_S8x64x4096 main_cst
  let main_v2 : IVec S8x64x4096 1 := cmpf .olt main_v0 main_v1
  let main_c : IVec S_ 1 := constantI S_ 1 1#1
  let main_v3 : IVec S_ 1 := (fun x v => Host.reduce IntOp.andi x v reducesTo_S8x64x4096_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_v13 main_v16
-- ==== Kernel.lean ====
abbrev S8x64x4096 : Shape := ⟨3, ![8, 64, 4096]⟩
abbrev S64x64 : Shape := ⟨2, ![64, 64]⟩
abbrev S64 : Shape := ⟨1, ![64]⟩
abbrev S1 : Shape := ⟨1, ![1]⟩
abbrev S1x64x4096 : Shape := ⟨3, ![1, 64, 4096]⟩

abbrev nBuf : Space → Nat
  | .hbm => 9
  | .vmem => 4
  | .smem => 0
  | _ => 0

abbrev bufTy : (tb : Table) → Fin (tcTables nBuf tb) → BufTy
  | .hbm, ⟨0, _⟩ => ⟨S8x64x4096, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1, .f32⟩
  | .hbm, ⟨8, _⟩ => ⟨S8x64x4096, .f32⟩
  | .local _ .vmem, ⟨0, _⟩ => ⟨S1x64x4096, .f32⟩
  | .local _ .vmem, ⟨1, _⟩ => ⟨S1x64x4096, .f32⟩
  | .local _ .vmem, ⟨2, _⟩ => ⟨S1x64x4096, .f32⟩
  | .local _ .vmem, ⟨3, _⟩ => ⟨S1x64x4096, .f32⟩
  | _, _ => ⟨S8x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x64x4096_S1x64x4096_0_0_0 : ∀ a, (![0, 0, 0] : Fin 3 → Nat) a + S1x64x4096.size a ≤ S1x64x4096.size a
  h_S1x64x4096 : 0 < S1x64x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4096.size a ≤ S8x64x4096.size a
  hwx0_0 : ∀ i : grid0.Coords, EltTy.bits .f32 = 32 ∨ (Rect.block (s := S8x64x4096) S1x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x4096.size a ≤ S8x64x4096.size a
  hwx0_1 : ∀ i : grid0.Coords, EltTy.bits .f32 = 32 ∨ (Rect.block (s := S8x64x4096) S1x64x4096.size (cc0_transform_1 i) (hinb0_1 i)).WholeWords (EltTy.packing .f32)

variable [Facts₀]

abbrev win0_0 : Pipeline.Window sig grid0 :=
  Pipeline.Window.ofSpec (Memref.whole main_arg0) S1x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x4096 : Shape := ⟨3, ![8, 64, 4096]⟩
abbrev S64x64 : Shape := ⟨2, ![64, 64]⟩
abbrev S64 : Shape := ⟨1, ![64]⟩
abbrev S1 : Shape := ⟨1, ![1]⟩
abbrev S8x4096x64 : Shape := ⟨3, ![8, 4096, 64]⟩
abbrev S1x64x1 : Shape := ⟨3, ![1, 64, 1]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S1x1x1 : Shape := ⟨3, ![1, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x64x4096, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1, .f32⟩
  | .hbm, ⟨8, _⟩ => ⟨S8x4096x64, .f32⟩
  | .hbm, ⟨9, _⟩ => ⟨S8x64x4096, .f32⟩
  | .hbm, ⟨10, _⟩ => ⟨S1x64x1, .f32⟩
  | .hbm, ⟨11, _⟩ => ⟨S8x64x4096, .f32⟩
  | .hbm, ⟨12, _⟩ => ⟨S8x64x4096, .f32⟩
  | .hbm, ⟨13, _⟩ => ⟨S8x4096x64, .f32⟩
  | .hbm, ⟨14, _⟩ => ⟨S8x64x4096, .f32⟩
  | .hbm, ⟨15, _⟩ => ⟨S1x64x1, .f32⟩
  | .hbm, ⟨16, _⟩ => ⟨S8x64x4096, .f32⟩
  | .hbm, ⟨17, _⟩ => ⟨S8x64x4096, .f32⟩
  | .hbm, ⟨18, _⟩ => ⟨S8x4096x64, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S8x4096x64, .f32⟩
  | .hbm, ⟨35, _⟩ => ⟨S8x64x4096, .f32⟩
  | .hbm, ⟨36, _⟩ => ⟨S1x64x1, .f32⟩
  | .hbm, ⟨37, _⟩ => ⟨S8x64x4096, .f32⟩
  | .hbm, ⟨38, _⟩ => ⟨S8x64x4096, .f32⟩
  | .hbm, ⟨39, _⟩ => ⟨S8x64x4096, .f32⟩
  | .hbm, ⟨40, _⟩ => ⟨S1x1x1, .f32⟩
  | .hbm, ⟨41, _⟩ => ⟨S8x64x4096, .f32⟩
  | .hbm, ⟨42, _⟩ => ⟨S8x64x4096, .f32⟩
  | .hbm, ⟨43, _⟩ => ⟨S8x64x4096, .f32⟩
  | _, _ => ⟨S8x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  transposes_S8x4096x64_S8x64x4096_0_2_1 : S8x4096x64.Transposes [0, 2, 1] S8x64x4096
  bcast_S64_S1x64x1_1 : S64.BroadcastsInDim S1x64x1 (![1] : Fin 1 → Fin S1x64x1.rank)
  bcast_S1x64x1_S8x64x4096_0_1_2 : S1x64x1.BroadcastsInDim S8x64x4096 (![0, 1, 2] : Fin 3 → Fin S8x64x4096.rank)
  shapeCasts_S8x64x4096_S8x4096x64 : S8x64x4096.ShapeCasts S8x4096x64
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  bcast_S1_S1x1x1_2 : S1.BroadcastsInDim S1x1x1 (![2] : Fin 1 → Fin S1x1x1.rank)
  bcast_S1x1x1_S8x64x4096_0_1_2 : S1x1x1.BroadcastsInDim S8x64x4096 (![0, 1, 2] : Fin 3 → Fin S8x64x4096.rank)
  dot_S8x64x4096_S64x64_S8x4096x64_1_1_02_0_n_n_wf : DotDims.WF S8x64x4096 S64x64 S8x4096x64 [1] [1] [0, 2] [0] [] []
  dot_S8x4096x64_S8x64x4096_S8x4096x4096_2_1_1_2_0_0_wf : DotDims.WF S8x4096x64 S8x64x4096 S8x4096x4096 [2] [1] [1] [2] [0] [0]
  dot_S8x64x4096_S8x4096x4096_S8x64x4096_2_1_1_2_0_0_wf : DotDims.WF S8x64x4096 S8x4096x4096 S8x64x4096 [2] [1] [1] [2] [0] [0]

variable [Facts₀]

def dot_S8x64x4096_S64x64_S8x4096x64_1_1_02_0_n_n : DotDims S8x64x4096 S64x64 S8x4096x64 where
  lhsContracting := [1]
  rhsContracting := [1]
  lhsNonContracting := [0, 2]
  rhsNonContracting := [0]
  lhsBatch := []
  rhsBatch := []
  wf := dot_S8x64x4096_S64x64_S8x4096x64_1_1_02_0_n_n_wf
def dot_S8x4096x64_S8x64x4096_S8x4096x4096_2_1_1_2_0_0 : DotDims S8x4096x64 S8x64x4096 S8x4096x4096 where
  lhsContracting := [2]
  rhsContracting := [1]
  lhsNonContracting := [1]
  rhsNonContracting := [2]
  lhsBatch := [0]
  rhsBatch := [0]
  wf := dot_S8x4096x64_S8x64x4096_S8x4096x4096_2_1_1_2_0_0_wf
def dot_S8x64x4096_S8x4096x4096_S8x64x4096_2_1_1_2_0_0 : DotDims S8x64x4096 S8x4096x4096 S8x64x4096 where
  lhsContracting := [2]
  rhsContracting := [1]
  lhsNonContracting := [1]
  rhsNonContracting := [2]
  lhsBatch := [0]
  rhsBatch := [0]
  wf := dot_S8x64x4096_S8x4096x4096_S8x64x4096_2_1_1_2_0_0_wf

class Facts : Prop extends Facts₀ where

variable [Facts]
-- ==== Proof.CopyValue.lean ====
/-
  The value of the copy kernel: after its run the output array holds the input array `x`, entry by entry.

  The array `x` has shape [8, 64, 4096] and the grid has one point per batch index `b`. At point `b` the body loads
  the whole [1, 64, 4096] block of `x` that sits at batch `b` and stores it, unchanged, over the whole output block;
  that block is then written back at the same position (b, 0, 0) of the output array. So what each point writes back is
  its block of ONE array — `x` itself — and since the eight blocks, one per batch index, cover every index (b, r, l) of
  the output array, the output array ends equal to `x`. No arithmetic is done, so this holds at every float instance.
-/
import proofs.«105688_j39522289058199_2_alg».proof.Proof.Gen.KernelIdeal.Value
import Idealize.ShloMosaic.Lib.Pipeline.Value

noncomputable section

namespace Cert.KernelIdeal.CopyValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's load and store start at offset (0, 0, 0) of the block. -/
theorem offsets_zero : (![0, 0, 0] : Fin 3 → Nat) = fun _ => 0 := funext fun a => by fin_cases a <;> rfl

/-- The input array `x` as the region finds it on core `c`, as a function of the index (b, r, l). -/
abbrev X (c : Dev nD) : S8x64x4096.Idx → Elt F .f32 := V m c main_arg0

/-- At every grid point the input block and the output block sit at the same block position, axis by axis, and that
    position is zero on the row axis and on the lane axis (decided over the eight points). -/
theorem same_position : ∀ t : Fin cfg0.N, win0_0.index t (0 : Fin 3) = win0_1.index t (0 : Fin 3)
    ∧ win0_0.index t (1 : Fin 3) = win0_1.index t (1 : Fin 3)
    ∧ win0_0.index t (2 : Fin 3) = win0_1.index t (2 : Fin 3) :=
  (by decide +kernel : ∀ t : Fin grid0.N, _)

/-- Every batch index `b` is the block position (b, 0, 0) of some grid point. -/
theorem point_of_batch : ∀ b : Fin 8, ∃ t : Fin cfg0.N, win0_1.index t = ![b.val, 0, 0] :=
  (by decide +kernel : ∀ b : Fin 8, ∃ t : Fin grid0.N, win0_1.index t = ![b.val, 0, 0])

/-- What point `t` writes back to the output array is the block of `x` at the same position: the body's one store
    puts the loaded input block, unchanged, over the whole output block. -/
theorem flushed_is_block_of_x (c : Dev nD) (t : Fin cfg0.N) :
    (dats m 0 c).flushed 1 t = ((cfg0.win 1).blk t).view.read (Elt F) (X m c) := by
  rw [Cert.KernelIdeal.Value.flushed1]
  unfold out0_1
  rw [View.canon_unit_zero offsets_zero]
  simp only [View.ld_unit_zero (S := S1x64x4096) offsets_zero]
  obtain ⟨e0, e1, e2⟩ := same_position t
  funext j
  show V m c main_arg0 (((cfg0.win 0).blk t).view.emb j) = V m c main_arg0 (((cfg0.win 1).blk t).view.emb j)
  have h : ((cfg0.win 0).blk t).view.emb j = ((cfg0.win 1).blk t).view.emb j := by
    funext a; apply Fin.ext
    match a with
    | ⟨0, _⟩ => show win0_0.index t (0 : Fin 3) * 1 + 1 * (j 0).val = win0_1.index t (0 : Fin 3) * 1 + 1 * (j 0).val; omega
    | ⟨1, _⟩ => show win0_0.index t (1 : Fin 3) * 64 + 1 * (j 1).val = win0_1.index t (1 : Fin 3) * 64 + 1 * (j 1).val; omega
    | ⟨2, _⟩ => show win0_0.index t (2 : Fin 3) * 4096 + 1 * (j 2).val = win0_1.index t (2 : Fin 3) * 4096 + 1 * (j 2).val; omega
  rw [h]

/-- An index (b, r, l) of the output array is in point `t`'s block iff each coordinate lies in the block's range on
    its axis. -/
theorem mem_block (t : Fin cfg0.N) (i : S8x64x4096.Idx) :
    i ∈ ((cfg0.win 1).blk t).view.set ↔ ∀ a : Fin 3, win0_1.index t a * S1x64x4096.size a ≤ (i a).val ∧ (i a).val < win0_1.index t a * S1x64x4096.size a + S1x64x4096.size a := by
  show i ∈ ((View.whole main_v0).slice (win0_1.rect t)).set ↔ _
  rw [View.set_slice_whole, Rect.mem_set_unit]
  exact Iff.rfl

/-- The eight blocks cover the output array: the index (b, r, l) is in the block of the point at position (b, 0, 0),
    which spans all 64 rows and all 4096 lanes of batch `b`. -/
theorem blocks_cover (i : S8x64x4096.Idx) :
    ∃ t : Fin cfg0.N, (cfg0.win 1).flush t = true ∧ i ∈ ((cfg0.win 1).blk t).view.set := by
  have hi0 : (i 0).val < 8 := (i 0).isLt
  have hi1 : (i 1).val < 64 := (i 1).isLt
  have hi2 : (i 2).val < 4096 := (i 2).isLt
  obtain ⟨t, ht⟩ := point_of_batch ⟨(i 0).val, hi0⟩
  have q0 : win0_1.index t (0 : Fin 3) = (i 0).val := congrFun ht 0
  have q1 : win0_1.index t (1 : Fin 3) = 0 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 64 ≤ (i 1).val ∧ (i 1).val < win0_1.index t (1 : Fin 3) * 64 + 64; omega
  | ⟨2, _⟩ => show win0_1.index t (2 : Fin 3) * 4096 ≤ (i 2).val ∧ (i 2).val < win0_1.index t (2 : Fin 3) * 4096 + 4096; omega

/-- The output array after the run is `x` as launched: every point writes back its block of `x`, and the blocks
    cover the array. -/
theorem output_is_x (c : Dev nD) : (dats m 0 c).arrAt 1 cfg0.N = m ((c : Thread nD τ).loc main_arg0) :=
  (dats m 0 c).arrAt_eq_of_cover 1 (X m c) (fun t _ => flushed_is_block_of_x m c t) blocks_cover

/-- The kernel's run, read: every weakly fair execution terminates with the output array equal to the input `x` as
    launched, and every argument array unchanged. -/
theorem run : θ_run defs (onTc (τ := τ) (main (F := F))) ⟨m, fun _ => 0, ρ⟩ fun r => ∀ c : Dev nD,
      r.2.mem ((c : Thread nD τ).loc main_v0) = m ((c : Thread nD τ).loc main_arg0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (output_is_x m c), (h c).2⟩)
    (Cert.KernelIdeal.Value.run_blocks m ρ)

end Cert.KernelIdeal.CopyValue

end
-- ==== Proof.lean ====
/-
  The proof of `Cert.Claim` (proofs.«105688_j39522289058199_2_alg».proof.Defs): the copy kernel against a reference
  that returns its first argument.

  The reference computes three 1x1 convolutions of `x`, an attention map and `gamma * out + x`, and then returns `x`
  itself: its result buffer is the argument buffer of `x`, which its run leaves as launched. The kernel, over a grid
  of one point per batch index, copies the [1, 64, 4096] block of `x` at that batch index into the same block of the
  output, so its output array ends equal to `x` (Proof/CopyValue.lean). Both results are therefore the array `x` the
  two programs were launched with, which the two memories agree on; no law of the extended reals is used and the
  finiteness of the inputs is never needed.

  The three frame claims: each program terminates without a fault and leaves its argument arrays unchanged — the
  two kernel programs by their generated frame certificates, the reference by its generated run with the result
  clause dropped. The kernel's idealization rewrote no operation, so `preserves` has nothing to state.
-/
import proofs.«105688_j39522289058199_2_alg».proof.Defs
import proofs.«105688_j39522289058199_2_alg».proof.Proof.Gen.Kernel
import proofs.«105688_j39522289058199_2_alg».proof.Proof.Gen.Kernel.Skeleton
import proofs.«105688_j39522289058199_2_alg».proof.Proof.Gen.Kernel.Launch
import proofs.«105688_j39522289058199_2_alg».proof.Proof.Gen.Kernel.Points
import proofs.«105688_j39522289058199_2_alg».proof.Proof.Gen.Kernel.Frame
import proofs.«105688_j39522289058199_2_alg».proof.Proof.Gen.KernelIdeal
import proofs.«105688_j39522289058199_2_alg».proof.Proof.Gen.KernelIdeal.Skeleton
import proofs.«105688_j39522289058199_2_alg».proof.Proof.Gen.KernelIdeal.Launch
import proofs.«105688_j39522289058199_2_alg».proof.Proof.Gen.KernelIdeal.Points
import proofs.«105688_j39522289058199_2_alg».proof.Proof.Gen.KernelIdeal.Frame
import proofs.«105688_j39522289058199_2_alg».proof.Proof.Gen.ReferenceIdeal
import proofs.«105688_j39522289058199_2_alg».proof.Proof.Gen.Pre_finite_inputs
import proofs.«105688_j39522289058199_2_alg».proof.Proof.Gen.KernelIdeal.Value
import proofs.«105688_j39522289058199_2_alg».proof.Proof.Gen.ReferenceIdeal.Run
import proofs.«105688_j39522289058199_2_alg».proof.Proof.CopyValue
import Idealize.ShloMosaic.Adequacy
import Idealize.ShloMosaic.Init

noncomputable section

namespace Cert.Proof

open Idealize.ShloMosaic Idealize.SL.Sem

/-- The word-level kernel terminates, faults nowhere, and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference runs all of its host operations to the end and leaves its arguments unchanged. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel's output array and the reference's result are both the array `x` as launched: the kernel copied it block
    by block, the reference returns the argument buffer, and the two memories agree on `x`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.CopyValue.run (F := Ideal) m ρ, ?_⟩
  refine (θ_run Cert.ReferenceIdeal.defs _ _).mono (fun _ h c => ⟨(h c).1.trans ?_, (h c).2⟩)
    (Cert.ReferenceIdeal.Value.run (F := Ideal) m' ρ')
  exact (hagree c).1

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
